-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S128x1 .f32) (main_arg13 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x1 .f32 := Host.absf main_arg12
  let main_cst_20 : FVec F S_ .f32 := constant S_ .f32 0x7F800000#32
  let main_v55 : FVec F S128x1 .f32 := broadcastInDim S128x1 ![] bcast_S_S128x1 main_cst_20
  let main_v56 : IVec S128x1 1 := cmpf .olt main_v54 main_v55
  let main_c_21 : IVec S_ 1 := constantI S_ 1 1#1
  let main_v57 : IVec S_ 1 := (fun x v => Host.reduce IntOp.andi x v reducesTo_S128x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S128x128 .f32) (main_arg9 : FVec F S128 .f32) (main_arg10 : FVec F S128x128 .f32) (main_arg11 : FVec F S128 .f32) (main_arg12 : FVec F S128x1 .f32) (main_arg13 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x128 .f32) (main_arg11 : FVec F S128 .f32) (main_arg12 : FVec F S128x1 .f32) (main_arg13 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 72
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .bf16⟩
  | .hbm, ⟨32, _⟩ => ⟨S128x128, .bf16⟩
  | .hbm, ⟨33, _⟩ => ⟨S1x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S128x128, .bf16⟩
  | .hbm, ⟨50, _⟩ => ⟨S128x128, .bf16⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S128x128, .bf16⟩
  | .hbm, ⟨68, _⟩ => ⟨S128x1, .bf16⟩
  | .hbm, ⟨69, _⟩ => ⟨S1x128, .f32⟩
  | .hbm, ⟨70, _⟩ => ⟨S1x1, .f32⟩
  | .hbm, ⟨71, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .bf16⟩
  | .local _ .vmem, ⟨25, _⟩ => ⟨S1x128, .f32⟩
  | .local _ .vmem, ⟨26, _⟩ => ⟨S128x1, .bf16⟩
  | .local _ .vmem, ⟨27, _⟩ => ⟨S1x1, .f32⟩
  | .local _ .vmem, ⟨28, _⟩ => ⟨S5000x1, .f32⟩
  | .local _ .vmem, ⟨29, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_1 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_4 : Ref sig .tc := ⟨.hbm, 54, rfl⟩
abbrev main_v34 : Ref sig .tc := ⟨.hbm, 55, rfl⟩
abbrev main_v35 : Ref sig .tc := ⟨.hbm, 56, rfl⟩
abbrev main_c_5 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x1 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x1.size a ≤ S128x1.size a
  hwx2_4 : ∀ i : grid2.Coords, EltTy.bits .bf16 = 32 ∨ (Rect.block (s := S128x1) S128x1.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x1.size a ≤ S100000x1.size a
  hwx2_6 : ∀ i : grid2.Coords, EltTy.bits .f32 = 32 ∨ (Rect.block (s := S100000x1) S5000x1.size (cc2_transform_6 i) (hinb2_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v13) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v28) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x1 : Shape := ⟨2, ![100000, 1]⟩
abbrev S1x1 : Shape := ⟨2, ![1, 1]⟩

abbrev nBuf : Space → Nat
  | .hbm => 99
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S_, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128, .f32⟩
  | .hbm, ⟨69, _⟩ => ⟨S100000x128, .f32⟩
  | .hbm, ⟨70, _⟩ => ⟨S100000x128, .f32⟩
  | .hbm, ⟨71, _⟩ => ⟨S_, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1600000, .i32⟩
  | .hbm, ⟨76, _⟩ => ⟨S1600000, .i1⟩
  | .hbm, ⟨77, _⟩ => ⟨S_, .i32⟩
  | .hbm, ⟨78, _⟩ => ⟨S1600000, .i32⟩
  | .hbm, ⟨79, _⟩ => ⟨S1600000, .i32⟩
  | .hbm, ⟨80, _⟩ => ⟨S1600000, .i32⟩
  | .hbm, ⟨81, _⟩ => ⟨S1600000x1, .i32⟩
  | .hbm, ⟨82, _⟩ => ⟨S1600000x128, .f32⟩
  | .hbm, ⟨83, _⟩ => ⟨S_, .f32⟩
  | .hbm, ⟨84, _⟩ => ⟨S100000x128, .f32⟩
  | .hbm, ⟨85, _⟩ => ⟨S1600000x1, .i32⟩
  | .hbm, ⟨86, _⟩ => ⟨S100000x128, .f32⟩
  | .hbm, ⟨87, _⟩ => ⟨S100000x128, .f32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .f32⟩
  | .hbm, ⟨93, _⟩ => ⟨S100000x128, .f32⟩
  | .hbm, ⟨94, _⟩ => ⟨S100000x128, .f32⟩
  | .hbm, ⟨95, _⟩ => ⟨S100000x1, .f32⟩
  | .hbm, ⟨96, _⟩ => ⟨S1x1, .f32⟩
  | .hbm, ⟨97, _⟩ => ⟨S100000x1, .f32⟩
  | .hbm, ⟨98, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_c_3 : Ref sig .tc := ⟨.hbm, 46, rfl⟩
abbrev main_v27 : Ref sig .tc := ⟨.hbm, 47, rfl⟩
abbrev main_v28 : Ref sig .tc := ⟨.hbm, 48, rfl⟩
abbrev main_c_4 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_6 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x1_S100000x1_1_0_0_1_n_n_wf : DotDims.WF S100000x128 S128x1 S100000x1 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf

class Facts : Prop extends Facts₀ where

variable [Facts]
-- ==== Proof.WholeRun.lean ====
/-
  The run of the three-layer program, with every buffer named at its end.

  The program is three kernel launches among stretches of host operations. Its buffers' contents are followed
  from boundary to boundary: a host stretch applies its operations to the contents it finds; a launch leaves each
  of its arrays at what the write-backs of its grid points leave and every other buffer untouched. The contents at
  the last boundary are the sixth fold `W6`. This module states the run once with that fold as its post: every
  weakly fair execution terminates, nothing faults, and every buffer that outlives the launches ends at `W6`.
  The result array and the argument arrays are then read off `W6` by whoever needs them.
-/
import proofs.«112989_j22892175688472_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, and
    on every core each buffer that outlives the launches holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.WholeRun

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.Spec.lean ====
/-
  The three-layer graph network as one function of its arguments, on the extended reals.

  A layer takes the node features `x` (one row of 128 numbers per node) and the aggregated neighbour features `a`
  (same layout), adds them, and sends every row through a two-step perceptron: a dense step into 128 hidden
  numbers, the maximum with zero, a dense step into the layer's outputs. A dense step of a row `h` against a
  weight matrix `W` and a bias `b` is, at output column `q`, the sum over `k` of `h k * W (k, q)`, plus `b q`.
  The first two layers end in another maximum with zero; the last one does not and has one output column.

  What a layer puts in row `p` depends on row `p` of `a` and of `x` only, which is why a kernel may compute it a
  block of rows at a time: this module states the row function (`mlpRow`) on a row, and the layers through it.
  The aggregation itself (gather the source rows of the edges, add them into the destination rows) is a parameter
  `agg` here: both programs apply the very same host operations for it, so nothing of it is ever opened.
-/
import Idealize.ShloMosaic.Lib.ValueIdx
import Idealize.ShloMosaic.PureOps.Ideal.Laws

noncomputable section

namespace Cert.Gin

open Idealize.ShloMosaic Idealize.ShloMosaic.ValueIdx

/-- The float zero, as both programs spell it. -/
abbrev Z : EReal := Ideal.ofBits .f32 0x00000000#32

/-- One dense step on one row: at output column `q`, the row against column `q` of the weights, plus the bias. -/
def denseRow {C : ℕ} (h : Fin 128 → EReal) (W : (⟨2, ![128, C]⟩ : Shape).Idx → EReal) (b : Fin C → EReal)
    (q : Fin C) : EReal :=
  (∑ k : Fin 128, h k * W (ix2 k q)) + b q

/-- The perceptron on one row: the aggregated row plus the node's own row, a dense step, the maximum with zero,
    a dense step. -/
def mlpRow {C : ℕ} (ar xr : Fin 128 → EReal) (Wa : (⟨2, ![128, 128]⟩ : Shape).Idx → EReal) (ba : Fin 128 → EReal)
    (Wb : (⟨2, ![128, C]⟩ : Shape).Idx → EReal) (bb : Fin C → EReal) (q : Fin C) : EReal :=
  denseRow (fun k => max (denseRow (fun j => ar j + xr j) Wa ba k) Z) Wb bb q

/-- A layer without a closing maximum, entry (p, q). -/
def layerLin {R C : ℕ} (a x : (⟨2, ![R, 128]⟩ : Shape).Idx → EReal) (Wa : (⟨2, ![128, 128]⟩ : Shape).Idx → EReal)
    (ba : Fin 128 → EReal) (Wb : (⟨2, ![128, C]⟩ : Shape).Idx → EReal) (bb : Fin C → EReal) (p : Fin R) (q : Fin C) : EReal :=
  mlpRow (fun j => a (ix2 p j)) (fun j => x (ix2 p j)) Wa ba Wb bb q

/-- A layer closed by the maximum with zero, entry (p, q). -/
def layerRelu {R C : ℕ} (a x : (⟨2, ![R, 128]⟩ : Shape).Idx → EReal) (Wa : (⟨2, ![128, 128]⟩ : Shape).Idx → EReal)
    (ba : Fin 128 → EReal) (Wb : (⟨2, ![128, C]⟩ : Shape).Idx → EReal) (bb : Fin C → EReal) (p : Fin R) (q : Fin C) : EReal :=
  max (layerLin a x Wa ba Wb bb p q) Z

/-- A function of the two coordinates as an array. -/
def arr2 {R C : ℕ} (f : Fin R → Fin C → EReal) : (⟨2, ![R, C]⟩ : Shape).Idx → EReal := fun i => f (i 0) (i 1)

theorem arr2_ix2 {R C : ℕ} (f : Fin R → Fin C → EReal) (p : Fin R) (q : Fin C) : arr2 f (ix2 p q) = f p q := rfl

/-- A vector as a function of its one coordinate. -/
def vec1 {n : ℕ} (b : (⟨1, ![n]⟩ : Shape).Idx → EReal) : Fin n → EReal := fun k => b (ix1 k)

/-- The one row of a one-row matrix as a function of the column. -/
def row1 {n : ℕ} (b : (⟨2, ![1, n]⟩ : Shape).Idx → EReal) : Fin n → EReal := fun k => b (ix2 (0 : Fin 1) k)

/-- Rows that agree give the same layer entry. -/
theorem layerLin_congr {R R' C : ℕ} (a x : (⟨2, ![R, 128]⟩ : Shape).Idx → EReal) (a' x' : (⟨2, ![R', 128]⟩ : Shape).Idx → EReal)
    (Wa : (⟨2, ![128, 128]⟩ : Shape).Idx → EReal) (ba : Fin 128 → EReal) (Wb : (⟨2, ![128, C]⟩ : Shape).Idx → EReal)
    (bb : Fin C → EReal) (p : Fin R) (p' : Fin R') (q : Fin C)
    (ha : ∀ j, a (ix2 p j) = a' (ix2 p' j)) (hx : ∀ j, x (ix2 p j) = x' (ix2 p' j)) :
    layerLin a x Wa ba Wb bb p q = layerLin a' x' Wa ba Wb bb p' q := by
  unfold layerLin
  rw [funext ha, funext hx]

/-- The network: three layers, each fed the aggregation of the previous layer's output beside that output. -/
def net (agg : ((⟨2, ![100000, 128]⟩ : Shape).Idx → EReal) → ((⟨2, ![100000, 128]⟩ : Shape).Idx → EReal))
    (x : (⟨2, ![100000, 128]⟩ : Shape).Idx → EReal)
    (W1a : (⟨2, ![128, 128]⟩ : Shape).Idx → EReal) (b1a : Fin 128 → EReal)
    (W1b : (⟨2, ![128, 128]⟩ : Shape).Idx → EReal) (b1b : Fin 128 → EReal)
    (W2a : (⟨2, ![128, 128]⟩ : Shape).Idx → EReal) (b2a : Fin 128 → EReal)
    (W2b : (⟨2, ![128, 128]⟩ : Shape).Idx → EReal) (b2b : Fin 128 → EReal)
    (W3a : (⟨2, ![128, 128]⟩ : Shape).Idx → EReal) (b3a : Fin 128 → EReal)
    (W3b : (⟨2, ![128, 1]⟩ : Shape).Idx → EReal) (b3b : Fin 1 → EReal) : (⟨2, ![100000, 1]⟩ : Shape).Idx → EReal :=
  arr2 (layerLin (agg (arr2 (layerRelu (agg (arr2 (layerRelu (agg x) x W1a b1a W1b b1b)))
      (arr2 (layerRelu (agg x) x W1a b1a W1b b1b)) W2a b2a W2b b2b)))
    (arr2 (layerRelu (agg (arr2 (layerRelu (agg x) x W1a b1a W1b b1b)))
      (arr2 (layerRelu (agg x) x W1a b1a W1b b1b)) W2a b2a W2b b2b)) W3a b3a W3b b3b)

end Cert.Gin

end
-- ==== Proof.DenseSteps.lean ====
/-
  One dense step (a row against a weight matrix, plus a bias) read at an entry, in the two spellings it has here.

  The vector unit multiplies a block of rows into the zero splat and adds the bias, which it holds as a one-row
  matrix laid along every row of the block. The host multiplies the whole array and adds the bias vector, first
  made a one-row matrix and then laid along every row. At entry (p, q) both are the sum over k of the row's k-th
  number times the weight at (k, q), plus the bias at q: `denseRow` of row p.
-/
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«112989_j22892175688472_1_alg».proof.Proof.LibMatmulIx
import proofs.«112989_j22892175688472_1_alg».proof.Proof.Spec

noncomputable section

namespace Cert.Gin

open Idealize.ShloMosaic Idealize.ShloMosaic.ValueIdx

variable {a C : ℕ} {φ₁ φ₂ : FTy}

/-- The vector unit's dense step at entry (p, q): the product into the zero splat plus the one-row bias laid along
    the rows is the row's dense step. -/
theorem vecDense_apply (D : DotDims ⟨2, ![a, 128]⟩ ⟨2, ![128, C]⟩ ⟨2, ![a, C]⟩) (hr : D.contr.rank = 1)
    (hs : D.contr.size ⟨0, by omega⟩ = 128)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (h : FVec Ideal ⟨2, ![a, 128]⟩ φ₁) (W : FVec Ideal ⟨2, ![128, C]⟩ φ₂) (b : FVec Ideal ⟨2, ![1, C]⟩ .f32)
    (hbr : (⟨2, ![1, C]⟩ : Shape).Broadcasts ⟨2, ![a, C]⟩) (p : Fin a) (q : Fin C) :
    addf (matmul D none h W (constant (F := Ideal) ⟨2, ![a, C]⟩ .f32 0x00000000#32)) (broadcastTo ⟨2, ![a, C]⟩ b hbr) (ix2 p q)
      = denseRow (fun k => h (ix2 p k)) W (row1 b) q := by
  rw [addf_apply, MatmulIx.matmul_zero_ix2 D hr hs hl0 hl1 hr0 hr1, broadcastTo_1b_ab_apply]
  rfl

/-- The host's dense step at entry (p, q): the whole-array product plus the bias vector made a row and laid along
    the rows is the row's dense step. -/
theorem hostDense_apply (D : DotDims ⟨2, ![a, 128]⟩ ⟨2, ![128, C]⟩ ⟨2, ![a, C]⟩) (hr : D.contr.rank = 1)
    (hs : D.contr.size ⟨0, by omega⟩ = 128)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (h : FVec Ideal ⟨2, ![a, 128]⟩ φ₁) (W : FVec Ideal ⟨2, ![128, C]⟩ φ₂) (b : FVec Ideal ⟨1, ![C]⟩ .f32)
    (h1 : (⟨1, ![C]⟩ : Shape).BroadcastsInDim ⟨2, ![1, C]⟩ ![1])
    (h2 : (⟨2, ![1, C]⟩ : Shape).BroadcastsInDim ⟨2, ![a, C]⟩ ![0, 1]) (p : Fin a) (q : Fin C) :
    addf (Host.dotGeneral D none h W) (broadcastInDim ⟨2, ![a, C]⟩ ![0, 1] h2 (broadcastInDim ⟨2, ![1, C]⟩ ![1] h1 b)) (ix2 p q)
      = denseRow (fun k => h (ix2 p k)) W (vec1 b) q := by
  rw [addf_apply, MatmulIx.dotGeneral_ix2 D hr hs hl0 hl1 hr0 hr1, broadcastInDim_oneRow_apply]
  rw [broadcastInDim_apply ![1] h1 b (ix2 (0 : Fin 1) q) (ix1 q) (by
    intro ax
    match ax with
    | ⟨0, _⟩ =>
      show q.val = if C = 1 then 0 else q.val
      split
      · have := q.isLt; omega
      · rfl)]
  rfl

end Cert.Gin

end
-- ==== Proof.Payloads.lean ====
/-
  What each of the three kernel bodies stores, read at an entry.

  Each body loads a block of aggregated rows and the same block of node rows, the two weight matrices and the two
  biases (each bias a one-row matrix), and stores one block of outputs. Entry (p, q) of what it stores is the
  perceptron of row p of the two loaded blocks at column q — closed by a maximum with zero in the first two bodies,
  left open in the third, whose outputs have one column. The roundings to bf16 on the way into the products are the
  identity on the extended reals, and a product into the zero splat is the plain sum.
-/
import proofs.«112989_j22892175688472_1_alg».proof.Proof.Gen.KernelIdeal.Skeleton
import proofs.«112989_j22892175688472_1_alg».proof.Proof.DenseSteps

noncomputable section

namespace Cert.KernelIdeal.Payloads

open Idealize.ShloMosaic Idealize.ShloMosaic.ValueIdx Cert.KernelIdeal Cert.KernelIdeal.Gen Cert.Gin

/-! ## The two products' dimension records: which coordinate of each operand a product's entry and its summation
    index name -/

/-- The left operand's row coordinate is the entry's row. -/
theorem dotW_l0 (i) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted one. -/
theorem dotW_l1 (i) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted one. -/
theorem dotW_r0 (i) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the entry's column. -/
theorem dotW_r1 (i) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The left operand's row coordinate is the entry's row. -/
theorem dotN_l0 (i) (q : dot_S5000x128_S128x1_S5000x1_1_0_0_1_n_n.contr.Idx) : (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- The left operand's column coordinate is the contracted one. -/
theorem dotN_l1 (i) (q : dot_S5000x128_S128x1_S5000x1_1_0_0_1_n_n.contr.Idx) : (dot_S5000x128_S128x1_S5000x1_1_0_0_1_n_n.lhsIdx i q 1).val = (q ⟨0, by decide⟩).val :=
  dot_S5000x128_S128x1_S5000x1_1_0_0_1_n_n.lhsIdx_val_of_single rfl i q
/-- The right operand's row coordinate is the contracted one. -/
theorem dotN_r0 (i) (q : dot_S5000x128_S128x1_S5000x1_1_0_0_1_n_n.contr.Idx) : (dot_S5000x128_S128x1_S5000x1_1_0_0_1_n_n.rhsIdx i q 0).val = (q ⟨0, by decide⟩).val :=
  dot_S5000x128_S128x1_S5000x1_1_0_0_1_n_n.rhsIdx_val_of_single rfl i q
/-- The right operand's column coordinate is the entry's column. -/
theorem dotN_r1 (i) (q : dot_S5000x128_S128x1_S5000x1_1_0_0_1_n_n.contr.Idx) : (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-! ## The hidden row: the first dense step and its maximum with zero, shared by the three bodies -/

/-- The hidden numbers of row p: the sum of the two loaded rows through the first dense step, then the maximum
    with zero. -/
theorem hidden_apply (x0 x1 : FVec Ideal S5000x128 .f32) (x2 : FVec Ideal S128x128 .bf16) (x3 : FVec Ideal S1x128 .f32)
    (p : Fin 5000) (k : Fin 128) :
    maximumf (addf (matmul dot_S5000x128_S128x128_S5000x128_1_0_0_1_n_n none
        (truncf .bf16 (addf x0 x1) bitsLt_bf16_f32) x2 (constant S5000x128 .f32 0x00000000#32))
        (broadcastTo S5000x128 x3 broadcasts_S1x128_S5000x128))
      (broadcast S5000x128 (Scalar.ofBits .f32 0x00000000#32)) (ix2 p k)
      = max (denseRow (fun j => x0 (ix2 p j) + x1 (ix2 p j)) x2 (row1 x3) k) Z := by
  rw [maximumf_apply, vecDense_apply dot_S5000x128_S128x128_S5000x128_1_0_0_1_n_n rfl rfl dotW_l0 dotW_l1 dotW_r0 dotW_r1]
  rfl

/-- The first body's store at entry (p, q). -/
theorem pay0_apply (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    k0_pay1 (F := Ideal) x0 x1 x2 x3 x4 x5 (ix2 p q)
      = max (mlpRow (fun j => x0 (ix2 p j)) (fun j => x1 (ix2 p j)) x2 (row1 x3) x4 (row1 x5) q) Z := by
  unfold k0_pay1
  simp only [shapeCast_self]
  rw [maximumf_apply, vecDense_apply dot_S5000x128_S128x128_S5000x128_1_0_0_1_n_n rfl rfl dotW_l0 dotW_l1 dotW_r0 dotW_r1]
  unfold mlpRow
  refine congrArg (fun h => max (denseRow h x4 (row1 x5) q) _) (funext fun k => ?_)
  exact hidden_apply x0 x1 x2 x3 p k

/-- The second body's store at entry (p, q). -/
theorem pay1_apply (x0 x1 : FVec Ideal S5000x128 .f32) (x2 : FVec Ideal S128x128 .bf16) (x3 : FVec Ideal S1x128 .f32)
    (x4 : FVec Ideal S128x128 .bf16) (x5 : FVec Ideal S1x128 .f32) (p : Fin 5000) (q : Fin 128) :
    k1_pay1 (F := Ideal) x0 x1 x2 x3 x4 x5 (ix2 p q)
      = max (mlpRow (fun j => x0 (ix2 p j)) (fun j => x1 (ix2 p j)) x2 (row1 x3) x4 (row1 x5) q) Z := by
  unfold k1_pay1
  simp only [shapeCast_self]
  rw [maximumf_apply, vecDense_apply dot_S5000x128_S128x128_S5000x128_1_0_0_1_n_n rfl rfl dotW_l0 dotW_l1 dotW_r0 dotW_r1]
  unfold mlpRow
  refine congrArg (fun h => max (denseRow h x4 (row1 x5) q) _) (funext fun k => ?_)
  exact hidden_apply x0 x1 x2 x3 p k

/-- The third body's store at entry (p, q): no closing maximum, one output column. -/
theorem pay2_apply (x0 x1 : FVec Ideal S5000x128 .f32) (x2 : FVec Ideal S128x128 .bf16) (x3 : FVec Ideal S1x128 .f32)
    (x4 : FVec Ideal S128x1 .bf16) (x5 : FVec Ideal S1x1 .f32) (p : Fin 5000) (q : Fin 1) :
    k2_pay1 (F := Ideal) x0 x1 x2 x3 x4 x5 (ix2 p q)
      = mlpRow (fun j => x0 (ix2 p j)) (fun j => x1 (ix2 p j)) x2 (row1 x3) x4 (row1 x5) q := by
  unfold k2_pay1
  simp only [shapeCast_self]
  rw [vecDense_apply dot_S5000x128_S128x1_S5000x1_1_0_0_1_n_n rfl rfl dotN_l0 dotN_l1 dotN_r0 dotN_r1]
  unfold mlpRow
  refine congrArg (fun h => denseRow h x4 (row1 x5) q) (funext fun k => ?_)
  exact hidden_apply x0 x1 x2 x3 p k

end Cert.KernelIdeal.Payloads

end
-- ==== Proof.Layer0.lean ====
/-
  What the first launch leaves in its output array, as one function of the arrays it finds.

  The launch walks 20 grid points; point t stages rows 5000·t … 5000·t + 4999 of the aggregated features and of the
  node features, the two weight matrices and the two one-row biases whole, runs the body on them, and writes the
  body's 128-column block of outputs back to the same rows of the output array. Row p of the block at point t is
  row 5000·t + p of the arrays, and a layer's row depends on that row of its two inputs only, so what point t writes
  back is block t of the layer computed on the whole arrays. The 20 blocks tile the output array (row r lies in
  block r / 5000), so after the launch the array holds the layer entry by entry.
  The contents the launch finds (`V`) are a parameter: the run supplies them.
-/
import proofs.«112989_j22892175688472_1_alg».proof.Proof.Gen.KernelIdeal.Frame
import proofs.«112989_j22892175688472_1_alg».proof.Proof.Payloads

set_option maxRecDepth 16384

noncomputable section

namespace Cert.KernelIdeal.Layer0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payloads Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at
    block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The layer on the whole arrays the launch finds. -/
abbrev G (c : Dev nD) : (⟨2, ![100000, 128]⟩ : Shape).Idx → EReal :=
  arr2 (layerRelu (V c main_v13) (V c main_arg0) (V c main_v14) (row1 (V c main_v16)) (V c main_v15) (row1 (V c main_v17)))

/-- Row p of a row-blocked window's block at point t is row 5000·t + p of its array (aggregated features). -/
theorem blk0 (c : Dev nD) (t : Fin cfg0.N) (p : Fin 5000) (P : Fin 100000) (hP : P.val = 5000 * t.val + p.val) (j : Fin 128) :
    iblk0 V c 0 t (ix2 p j) = V c main_v13 (ix2 P j) := by
  obtain ⟨e00, e01, -⟩ := idx_facts t
  show V c main_v13 (((cfg0.win 0).blk t).view.emb (ix2 p j)) = V c main_v13 (ix2 P j)
  refine congrArg (V c main_v13) (funext fun a => Fin.ext ?_)
  match a with
  | ⟨0, _⟩ => show win0_0.index t (0 : Fin 2) * 5000 + 1 * p.val = P.val; omega
  | ⟨1, _⟩ => show win0_0.index t (1 : Fin 2) * 128 + 1 * j.val = j.val; omega

/-- The same for the node features. -/
theorem blk1 (c : Dev nD) (t : Fin cfg0.N) (p : Fin 5000) (P : Fin 100000) (hP : P.val = 5000 * t.val + p.val) (j : Fin 128) :
    iblk0 V c 1 t (ix2 p j) = V c main_arg0 (ix2 P j) := by
  obtain ⟨-, -, e10, e11, -⟩ := idx_facts t
  show V c main_arg0 (((cfg0.win 1).blk t).view.emb (ix2 p j)) = V c main_arg0 (ix2 P j)
  refine congrArg (V c main_arg0) (funext fun a => Fin.ext ?_)
  match a with
  | ⟨0, _⟩ => show win0_1.index t (0 : Fin 2) * 5000 + 1 * p.val = P.val; omega
  | ⟨1, _⟩ => show win0_1.index t (1 : Fin 2) * 128 + 1 * j.val = j.val; omega

/-- A whole-array window's block is its array: the first weight matrix. -/
theorem blk2 (c : Dev nD) (t : Fin cfg0.N) : (iblk0 V c 2 t : FVec Ideal S128x128 .bf16) = V c main_v14 := by
  obtain ⟨-, -, -, -, e0, e1, -⟩ := idx_facts t
  funext y
  show V c main_v14 (((cfg0.win 2).blk t).view.emb y) = V c main_v14 y
  refine congrArg (V c main_v14) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The first bias row. -/
theorem blk3 (c : Dev nD) (t : Fin cfg0.N) : (iblk0 V c 3 t : FVec Ideal S1x128 .f32) = V c main_v16 := by
  obtain ⟨-, -, -, -, -, -, e0, e1, -⟩ := idx_facts t
  funext y
  show V c main_v16 (((cfg0.win 3).blk t).view.emb y) = V c main_v16 y
  refine congrArg (V c main_v16) (funext fun a => Fin.ext ?_)
  match a with
  | ⟨0, _⟩ => show win0_3.index t (0 : Fin 2) * 1 + 1 * (y 0).val = (y 0).val; omega
  | ⟨1, _⟩ => show win0_3.index t (1 : Fin 2) * 128 + 1 * (y 1).val = (y 1).val; omega

/-- The second weight matrix. -/
theorem blk4 (c : Dev nD) (t : Fin cfg0.N) : (iblk0 V c 4 t : FVec Ideal S128x128 .bf16) = V c main_v15 := by
  obtain ⟨-, -, -, -, -, -, -, -, e0, e1, -⟩ := idx_facts t
  funext y
  show V c main_v15 (((cfg0.win 4).blk t).view.emb y) = V c main_v15 y
  refine congrArg (V c main_v15) (funext fun a => Fin.ext ?_)
  match a with
  | ⟨0, _⟩ => show win0_4.index t (0 : Fin 2) * 128 + 1 * (y 0).val = (y 0).val; omega
  | ⟨1, _⟩ => show win0_4.index t (1 : Fin 2) * 128 + 1 * (y 1).val = (y 1).val; omega

/-- The second bias row. -/
theorem blk5 (c : Dev nD) (t : Fin cfg0.N) : (iblk0 V c 5 t : FVec Ideal S1x128 .f32) = V c main_v17 := by
  obtain ⟨-, -, -, -, -, -, -, -, -, -, e0, e1, -⟩ := idx_facts t
  funext y
  show V c main_v17 (((cfg0.win 5).blk t).view.emb y) = V c main_v17 y
  refine congrArg (V c main_v17) (funext fun a => Fin.ext ?_)
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- Entry (p, q) of the output block at point t sits at (5000·t + p, q) of the output array. -/
theorem emb6 (t : Fin cfg0.N) (p : Fin 5000) (q : Fin 128) (P : Fin 100000) (hP : P.val = 5000 * t.val + p.val) :
    ((cfg0.win 6).blk t).view.emb (ix2 p q) = ix2 P q := by
  obtain ⟨-, -, -, -, -, -, -, -, -, -, -, -, e0, e1⟩ := idx_facts t
  refine funext fun a => Fin.ext ?_
  match a with
  | ⟨0, _⟩ => show win0_6.index t (0 : Fin 2) * 5000 + 1 * p.val = P.val; omega
  | ⟨1, _⟩ => show win0_6.index t (1 : Fin 2) * 128 + 1 * q.val = q.val; omega

/-- What point t writes back is block t of the layer on the whole arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 20 := by have := t.isLt; have hN : cfg0.N = 20 := N_0; omega
  have hp := p.isLt
  let P : Fin 100000 := ⟨5000 * t.val + p.val, by omega⟩
  have hP : P.val = 5000 * t.val + p.val := rfl
  refine (pay0_apply (iblk0 V c 0 t) (iblk0 V c 1 t) (iblk0 V c 2 t) (iblk0 V c 3 t) (iblk0 V c 4 t) (iblk0 V c 5 t) p q).trans ?_
  rw [blk2 V c t, blk3 V c t, blk4 V c t, blk5 V c t,
    show (fun j => iblk0 V c 0 t (ix2 p j)) = fun j => V c main_v13 (ix2 P j) from funext fun j => blk0 V c t p P hP j,
    show (fun j => iblk0 V c 1 t (ix2 p j)) = fun j => V c main_arg0 (ix2 P j) from funext fun j => blk1 V c t p P hP j]
  show _ = G V c (((cfg0.win 6).blk t).view.emb (ix2 p q))
  rw [emb6 t p q P hP]
  rfl

/-- Membership in point t's output block, coordinate by coordinate. -/
theorem mem_blk (t : Fin cfg0.N) (i : (⟨2, ![100000, 128]⟩ : Shape).Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v18).slice (win0_6.rect t)).set ↔ _
  rw [View.set_slice_whole, Rect.mem_set_unit]
  exact Iff.rfl

/-- Every entry of the output array lies in the block of the point its row selects. -/
theorem cover (i : (⟨2, ![100000, 128]⟩ : Shape).Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  let t : Fin cfg0.N := ⟨(i 0).val / 5000, by omega⟩
  have htv : t.val = (i 0).val / 5000 := rfl
  obtain ⟨-, -, -, -, -, -, -, -, -, -, -, -, e0, e1⟩ := idx_facts t
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the launch the output array holds the layer, entry by entry. -/
theorem final (c : Dev nD) : (dat0 V c).arrAt 6 cfg0.N = G V c :=
  (dat0 V c).arrAt_eq_of_cover 6 (G V c) (fun t _ => flushed_eq V c t) cover

end Cert.KernelIdeal.Layer0

end
-- ==== Proof.Layer1.lean ====
/-
  What the second launch leaves in its output array, as one function of the arrays it finds.

  The launch walks 20 grid points; point t stages rows 5000·t … 5000·t + 4999 of the aggregated features and of the
  node features, the two weight matrices and the two one-row biases whole, runs the body on them, and writes the
  body's 128-column block of outputs back to the same rows of the output array. Row p of the block at point t is
  row 5000·t + p of the arrays, and a layer's row depends on that row of its two inputs only, so what point t writes
  back is block t of the layer computed on the whole arrays. The 20 blocks tile the output array (row r lies in
  block r / 5000), so after the launch the array holds the layer entry by entry.
  The contents the launch finds (`V`) are a parameter: the run supplies them.
-/
import proofs.«112989_j22892175688472_1_alg».proof.Proof.Gen.KernelIdeal.Frame
import proofs.«112989_j22892175688472_1_alg».proof.Proof.Payloads

set_option maxRecDepth 16384

noncomputable section

namespace Cert.KernelIdeal.Layer1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payloads Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The layer on the whole arrays the launch finds. -/
abbrev G (c : Dev nD) : (⟨2, ![100000, 128]⟩ : Shape).Idx → EReal :=
  arr2 (layerRelu (V c main_v28) (V c main_v18) (V c main_v29) (row1 (V c main_v31)) (V c main_v30) (row1 (V c main_v32)))

/-- Row p of a row-blocked window's block at point t is row 5000·t + p of its array (aggregated features). -/
theorem blk0 (c : Dev nD) (t : Fin cfg1.N) (p : Fin 5000) (P : Fin 100000) (hP : P.val = 5000 * t.val + p.val) (j : Fin 128) :
    iblk1 V c 0 t (ix2 p j) = V c main_v28 (ix2 P j) := by
  obtain ⟨e00, e01, -⟩ := idx_facts t
  show V c main_v28 (((cfg1.win 0).blk t).view.emb (ix2 p j)) = V c main_v28 (ix2 P j)
  refine congrArg (V c main_v28) (funext fun a => Fin.ext ?_)
  match a with
  | ⟨0, _⟩ => show win1_0.index t (0 : Fin 2) * 5000 + 1 * p.val = P.val; omega
  | ⟨1, _⟩ => show win1_0.index t (1 : Fin 2) * 128 + 1 * j.val = j.val; omega

/-- The same for the node features. -/
theorem blk1 (c : Dev nD) (t : Fin cfg1.N) (p : Fin 5000) (P : Fin 100000) (hP : P.val = 5000 * t.val + p.val) (j : Fin 128) :
    iblk1 V c 1 t (ix2 p j) = V c main_v18 (ix2 P j) := by
  obtain ⟨-, -, e10, e11, -⟩ := idx_facts t
  show V c main_v18 (((cfg1.win 1).blk t).view.emb (ix2 p j)) = V c main_v18 (ix2 P j)
  refine congrArg (V c main_v18) (funext fun a => Fin.ext ?_)
  match a with
  | ⟨0, _⟩ => show win1_1.index t (0 : Fin 2) * 5000 + 1 * p.val = P.val; omega
  | ⟨1, _⟩ => show win1_1.index t (1 : Fin 2) * 128 + 1 * j.val = j.val; omega

/-- A whole-array window's block is its array: the first weight matrix. -/
theorem blk2 (c : Dev nD) (t : Fin cfg1.N) : (iblk1 V c 2 t : FVec Ideal S128x128 .bf16) = V c main_v29 := by
  obtain ⟨-, -, -, -, e0, e1, -⟩ := idx_facts t
  funext y
  show V c main_v29 (((cfg1.win 2).blk t).view.emb y) = V c main_v29 y
  refine congrArg (V c main_v29) (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The first bias row. -/
theorem blk3 (c : Dev nD) (t : Fin cfg1.N) : (iblk1 V c 3 t : FVec Ideal S1x128 .f32) = V c main_v31 := by
  obtain ⟨-, -, -, -, -, -, e0, e1, -⟩ := idx_facts t
  funext y
  show V c main_v31 (((cfg1.win 3).blk t).view.emb y) = V c main_v31 y
  refine congrArg (V c main_v31) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- The second weight matrix. -/
theorem blk4 (c : Dev nD) (t : Fin cfg1.N) : (iblk1 V c 4 t : FVec Ideal S128x128 .bf16) = V c main_v30 := by
  obtain ⟨-, -, -, -, -, -, -, -, e0, e1, -⟩ := idx_facts t
  funext y
  show V c main_v30 (((cfg1.win 4).blk t).view.emb y) = V c main_v30 y
  refine congrArg (V c main_v30) (funext fun a => Fin.ext ?_)
  match a with
  | ⟨0, _⟩ => show win1_4.index t (0 : Fin 2) * 128 + 1 * (y 0).val = (y 0).val; omega
  | ⟨1, _⟩ => show win1_4.index t (1 : Fin 2) * 128 + 1 * (y 1).val = (y 1).val; omega

/-- The second bias row. -/
theorem blk5 (c : Dev nD) (t : Fin cfg1.N) : (iblk1 V c 5 t : FVec Ideal S1x128 .f32) = V c main_v32 := by
  obtain ⟨-, -, -, -, -, -, -, -, -, -, e0, e1, -⟩ := idx_facts t
  funext y
  show V c main_v32 (((cfg1.win 5).blk t).view.emb y) = V c main_v32 y
  refine congrArg (V c main_v32) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- Entry (p, q) of the output block at point t sits at (5000·t + p, q) of the output array. -/
theorem emb6 (t : Fin cfg1.N) (p : Fin 5000) (q : Fin 128) (P : Fin 100000) (hP : P.val = 5000 * t.val + p.val) :
    ((cfg1.win 6).blk t).view.emb (ix2 p q) = ix2 P q := by
  obtain ⟨-, -, -, -, -, -, -, -, -, -, -, -, e0, e1⟩ := idx_facts t
  refine funext fun a => Fin.ext ?_
  match a with
  | ⟨0, _⟩ => show win1_6.index t (0 : Fin 2) * 5000 + 1 * p.val = P.val; omega
  | ⟨1, _⟩ => show win1_6.index t (1 : Fin 2) * 128 + 1 * q.val = q.val; omega

/-- What point t writes back is block t of the layer on the whole arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  funext y
  obtain ⟨p, q, rfl⟩ : ∃ (p : Fin 5000) (q : Fin 128), y = ix2 p q := ⟨y 0, y 1, eq_ix2 y⟩
  have ht : t.val < 20 := by have := t.isLt; have hN : cfg1.N = 20 := N_1; omega
  have hp := p.isLt
  let P : Fin 100000 := ⟨5000 * t.val + p.val, by omega⟩
  have hP : P.val = 5000 * t.val + p.val := rfl
  refine (pay1_apply (iblk1 V c 0 t) (iblk1 V c 1 t) (iblk1 V c 2 t) (iblk1 V c 3 t) (iblk1 V c 4 t) (iblk1 V c 5 t) p q).trans ?_
  rw [blk2 V c t, blk3 V c t, blk4 V c t, blk5 V c t,
    show (fun j => iblk1 V c 0 t (ix2 p j)) = fun j => V c main_v28 (ix2 P j) from funext fun j => blk0 V c t p P hP j,
    show (fun j => iblk1 V c 1 t (ix2 p j)) = fun j => V c main_v18 (ix2 P j) from funext fun j => blk1 V c t p P hP j]
  show _ = G V c (((cfg1.win 6).blk t).view.emb (ix2 p q))
  rw [emb6 t p q P hP]
  rfl

/-- Membership in point t's output block, coordinate by coordinate. -/
theorem mem_blk (t : Fin cfg1.N) (i : (⟨2, ![100000, 128]⟩ : Shape).Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v33).slice (win1_6.rect t)).set ↔ _
  rw [View.set_slice_whole, Rect.mem_set_unit]
  exact Iff.rfl

/-- Every entry of the output array lies in the block of the point its row selects. -/
theorem cover (i : (⟨2, ![100000, 128]⟩ : Shape).Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by omega⟩
  have htv : t.val = (i 0).val / 5000 := rfl
  obtain ⟨-, -, -, -, -, -, -, -, -, -, -, -, e0, e1⟩ := idx_facts t
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the launch the output array holds the layer, entry by entry. -/
theorem final (c : Dev nD) : (dat1 V c).arrAt 6 cfg1.N = G V c :=
  (dat1 V c).arrAt_eq_of_cover 6 (G V c) (fun t _ => flushed_eq V c t) cover

end Cert.KernelIdeal.Layer1

end
-- ==== Proof.Layer2.lean ====
/-
  What the third launch leaves in its output array, as one function of the arrays it finds.

  The launch walks 20 grid points; point t stages rows 5000·t … 5000·t + 4999 of the aggregated features and of the
  node features, the two weight matrices and the two one-row biases whole, runs the body on them, and writes the
  body's 1-column block of outputs back to the same rows of the output array. Row p of the block at point t is
  row 5000·t + p of the arrays, and a layer's row depends on that row of its two inputs only, so what point t writes
  back is block t of the layer computed on the whole arrays. The 20 blocks tile the output array (row r lies in
  block r / 5000), so after the launch the array holds the layer entry by entry.
  The contents the launch finds (`V`) are a parameter: the run supplies them.
-/
import proofs.«112989_j22892175688472_1_alg».proof.Proof.Gen.KernelIdeal.Frame
import proofs.«112989_j22892175688472_1_alg».proof.Proof.Payloads

set_option maxRecDepth 16384

noncomputable section

namespace Cert.KernelIdeal.Layer2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Payloads Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block (t, 0), the whole-array windows at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The layer on the whole arrays the launch finds. -/
abbrev G (c : Dev nD) : (⟨2, ![100000, 1]⟩ : Shape).Idx → EReal :=
  arr2 (layerLin (V c main_v43) (V c main_v33) (V c main_v44) (row1 (V c main_v46)) (V c main_v45) (row1 (V c main_v47)))

/-- Row p of a row-blocked window's block at point t is row 5000·t + p of its array (aggregated features). -/
theorem blk0 (c : Dev nD) (t : Fin cfg2.N) (p : Fin 5000) (P : Fin 100000) (hP : P.val = 5000 * t.val + p.val) (j : Fin 128) :
    iblk2 V c 0 t (ix2 p j) = V c main_v43 (ix2 P j) := by
  obtain ⟨e00, e01, -⟩ := idx_facts t
  show V c main_v43 (((cfg2.win 0).blk t).view.emb (ix2 p j)) = V c main_v43 (ix2 P j)
  refine congrArg (V c main_v43) (funext fun a => Fin.ext ?_)
  match a with
  | ⟨0, _⟩ => show win2_0.index t (0 : Fin 2) * 5000 + 1 * p.val = P.val; omega
  | ⟨1, _⟩ => show win2_0.index t (1 : Fin 2) * 128 + 1 * j.val = j.val; omega

/-- The same for the node features. -/
theorem blk1 (c : Dev nD) (t : Fin cfg2.N) (p : Fin 5000) (P : Fin 100000) (hP : P.val = 5000 * t.val + p.val) (j : Fin 128) :
    iblk2 V c 1 t (ix2 p j) = V c main_v33 (ix2 P j) := by
  obtain ⟨-, -, e10, e11, -⟩ := idx_facts t
  show V c main_v33 (((cfg2.win 1).blk t).view.emb (ix2 p j)) = V c main_v33 (ix2 P j)
  refine congrArg (V c main_v33) (funext fun a => Fin.ext ?_)
  match a with
  | ⟨0, _⟩ => show win2_1.index t (0 : Fin 2) * 5000 + 1 * p.val = P.val; omega
  | ⟨1, _⟩ => show win2_1.index t (1 : Fin 2) * 128 + 1 * j.val = j.val; omega

/-- A whole-array window's block is its array: the first weight matrix. -/
theorem blk2 (c : Dev nD) (t : Fin cfg2.N) : (iblk2 V c 2 t : FVec Ideal S128x128 .bf16) = V c main_v44 := by
  obtain ⟨-, -, -, -, e0, e1, -⟩ := idx_facts t
  funext y
  show V c main_v44 (((cfg2.win 2).blk t).view.emb y) = V c main_v44 y
  refine congrArg (V c main_v44) (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The first bias row. -/
theorem blk3 (c : Dev nD) (t : Fin cfg2.N) : (iblk2 V c 3 t : FVec Ideal S1x128 .f32) = V c main_v46 := by
  obtain ⟨-, -, -, -, -, -, e0, e1, -⟩ := idx_facts t
  funext y
  show V c main_v46 (((cfg2.win 3).blk t).view.emb y) = V c main_v46 y
  refine congrArg (V c main_v46) (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The second weight matrix. -/
theorem blk4 (c : Dev nD) (t : Fin cfg2.N) : (iblk2 V c 4 t : FVec Ideal S128x1 .bf16) = V c main_v45 := by
  obtain ⟨-, -, -, -, -, -, -, -, e0, e1, -⟩ := idx_facts t
  funext y
  show V c main_v45 (((cfg2.win 4).blk t).view.emb y) = V c main_v45 y
  refine congrArg (V c main_v45) (funext fun a => Fin.ext ?_)
  match a with
  | ⟨0, _⟩ => show win2_4.index t (0 : Fin 2) * 128 + 1 * (y 0).val = (y 0).val; omega
  | ⟨1, _⟩ => show win2_4.index t (1 : Fin 2) * 1 + 1 * (y 1).val = (y 1).val; omega

/-- The second bias row. -/
theorem blk5 (c : Dev nD) (t : Fin cfg2.N) : (iblk2 V c 5 t : FVec Ideal S1x1 .f32) = V c main_v47 := by
  obtain ⟨-, -, -, -, -, -, -, -, -, -, e0, e1, -⟩ := idx_facts t
  funext y
  show V c main_v47 (((cfg2.win 5).blk t).view.emb y) = V c main_v47 y
  refine congrArg (V c main_v47) (funext fun a => Fin.ext ?_)
  match a with
  | ⟨0, _⟩ => show win2_5.index t (0 : Fin 2) * 1 + 1 * (y 0).val = (y 0).val; omega
  | ⟨1, _⟩ => show win2_5.index t (1 : Fin 2) * 1 + 1 * (y 1).val = (y 1).val; omega

/-- Entry (p, q) of the output block at point t sits at (5000·t + p, q) of the output array. -/
theorem emb6 (t : Fin cfg2.N) (p : Fin 5000) (q : Fin 1) (P : Fin 100000) (hP : P.val = 5000 * t.val + p.val) :
    ((cfg2.win 6).blk t).view.emb (ix2 p q) = ix2 P q := by
  obtain ⟨-, -, -, -, -, -, -, -, -, -, -, -, e0, e1⟩ := idx_facts t
  refine funext fun a => Fin.ext ?_
  match a with
  | ⟨0, _⟩ => show win2_6.index t (0 : Fin 2) * 5000 + 1 * p.val = P.val; omega
  | ⟨1, _⟩ => show win2_6.index t (1 : Fin 2) * 1 + 1 * q.val = q.val; omega

/-- What point t writes back is block t of the layer on the whole arrays. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz, View.ld_unit_zero (S := S128x1) hz, View.ld_unit_zero (S := S1x1) hz, View.ld_unit_zero (S := S5000x1) hz]
  funext y
  obtain ⟨p, q, rfl⟩ : ∃ (p : Fin 5000) (q : Fin 1), y = ix2 p q := ⟨y 0, y 1, eq_ix2 y⟩
  have ht : t.val < 20 := by have := t.isLt; have hN : cfg2.N = 20 := N_2; omega
  have hp := p.isLt
  let P : Fin 100000 := ⟨5000 * t.val + p.val, by omega⟩
  have hP : P.val = 5000 * t.val + p.val := rfl
  refine (pay2_apply (iblk2 V c 0 t) (iblk2 V c 1 t) (iblk2 V c 2 t) (iblk2 V c 3 t) (iblk2 V c 4 t) (iblk2 V c 5 t) p q).trans ?_
  rw [blk2 V c t, blk3 V c t, blk4 V c t, blk5 V c t,
    show (fun j => iblk2 V c 0 t (ix2 p j)) = fun j => V c main_v43 (ix2 P j) from funext fun j => blk0 V c t p P hP j,
    show (fun j => iblk2 V c 1 t (ix2 p j)) = fun j => V c main_v33 (ix2 P j) from funext fun j => blk1 V c t p P hP j]
  show _ = G V c (((cfg2.win 6).blk t).view.emb (ix2 p q))
  rw [emb6 t p q P hP]
  rfl

/-- Membership in point t's output block, coordinate by coordinate. -/
theorem mem_blk (t : Fin cfg2.N) (i : (⟨2, ![100000, 1]⟩ : Shape).Idx) :
    i ∈ ((cfg2.win 6).blk t).view.set ↔ ∀ a : Fin 2, win2_6.index t a * S5000x1.size a ≤ (i a).val ∧ (i a).val < win2_6.index t a * S5000x1.size a + S5000x1.size a := by
  show i ∈ ((View.whole main_v48).slice (win2_6.rect t)).set ↔ _
  rw [View.set_slice_whole, Rect.mem_set_unit]
  exact Iff.rfl

/-- Every entry of the output array lies in the block of the point its row selects. -/
theorem cover (i : (⟨2, ![100000, 1]⟩ : Shape).Idx) :
    ∃ t : Fin cfg2.N, (cfg2.win 6).flush t = true ∧ i ∈ ((cfg2.win 6).blk t).view.set := by
  have hi0 : (i 0).val < 100000 := (i 0).isLt
  have hi1 : (i 1).val < 1 := (i 1).isLt
  have hN : cfg2.N = 20 := N_2
  let t : Fin cfg2.N := ⟨(i 0).val / 5000, by omega⟩
  have htv : t.val = (i 0).val / 5000 := rfl
  obtain ⟨-, -, -, -, -, -, -, -, -, -, -, -, e0, e1⟩ := idx_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 1 ≤ (i 1).val ∧ (i 1).val < win2_6.index t (1 : Fin 2) * 1 + 1; omega

/-- After the launch the output array holds the layer, entry by entry. -/
theorem final (c : Dev nD) : (dat2 V c).arrAt 6 cfg2.N = G V c :=
  (dat2 V c).arrAt_eq_of_cover 6 (G V c) (fun t _ => flushed_eq V c t) cover

end Cert.KernelIdeal.Layer2

end
-- ==== Proof.HostStretches.lean ====
/-
  What the host operations between the launches leave in the arrays each launch reads.

  Before every launch the host gathers the rows of the current features at the edges' source positions and adds
  them into a zero array at the destination positions (the aggregation), rounds the layer's two weight matrices to
  bf16 (the identity on the extended reals) and recasts its two bias vectors as one-row matrices. The source and
  destination position vectors are cut out of the edge array once, before the first launch, and reused.
  Each statement below reads one array at a boundary of the run as those operations of the contents one boundary
  earlier; the aggregation is kept as the one function `aggOf`.
-/
import proofs.«112989_j22892175688472_1_alg».proof.Proof.Gen.KernelIdeal.Frame
import Idealize.ShloMosaic.PureOps.Ideal.Laws

set_option maxRecDepth 16384

noncomputable section

namespace Cert.KernelIdeal.Stretch

open Idealize.ShloMosaic Idealize.ShloMosaic.TcCoe Idealize.ShloMosaic.StableHlo
open Idealize.SL Idealize.SL.Sem
open Cert.KernelIdeal Cert.KernelIdeal.Gen

/-- The edges' source positions: row 0 of the edge array as a vector. -/
def srcOf (e : IVec S2x1600000 32) : IVec S1600000 32 :=
  shapeCast S1600000 (extractStridedSlice S1x1600000 ![0, 0] e slices_S2x1600000_S1x1600000_0_0) shapeCasts_S1x1600000_S1600000

/-- The edges' destination positions: row 1 of the edge array as a vector. -/
def dstOf (e : IVec S2x1600000 32) : IVec S1600000 32 :=
  shapeCast S1600000 (extractStridedSlice S1x1600000 ![1, 0] e slices_S2x1600000_S1x1600000_1_0) shapeCasts_S1x1600000_S1600000

/-- The aggregation as the host spells it: gather the rows at the source positions (a negative position counted
    from the end), and add them into the zero array at the destination positions. Never opened: both programs
    apply exactly these operations. -/
def aggOf (src dst : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

variable (m : (ℓ : Loc nD τ sig) → Buf (Elt Ideal) ℓ) (ρ : Dev nD → PrngReg)

/-! ## Before the first launch -/

theorem W1_v1 (c : Dev nD) : W1 m ρ c (Proc.devRef .tc main_v1) = srcOf (m ((c : Thread nD τ).loc main_arg1)) := by
  show StableHlo.after (hostOps0 (F := Ideal)) (W0 m ρ c) (Proc.devRef .tc main_v1) = _
  after_results_simp <;> rfl

theorem W1_v3 (c : Dev nD) : W1 m ρ c (Proc.devRef .tc main_v3) = dstOf (m ((c : Thread nD τ).loc main_arg1)) := by
  show StableHlo.after (hostOps0 (F := Ideal)) (W0 m ρ c) (Proc.devRef .tc main_v3) = _
  after_results_simp <;> rfl

set_option maxHeartbeats 4000000 in
theorem V1_v13 (c : Dev nD) : V1 m ρ c main_v13
    = aggOf (srcOf (m ((c : Thread nD τ).loc main_arg1))) (dstOf (m ((c : Thread nD τ).loc main_arg1))) (m ((c : Thread nD τ).loc main_arg0)) := by
  show StableHlo.after (hostOps0 (F := Ideal)) (W0 m ρ c) (Proc.devRef .tc main_v13) = _
  after_results_simp <;> rfl

theorem V1_arg0 (c : Dev nD) : V1 m ρ c main_arg0 = m ((c : Thread nD τ).loc main_arg0) := by
  show StableHlo.after (hostOps0 (F := Ideal)) (W0 m ρ c) (Proc.devRef .tc main_arg0) = _
  after_results_simp <;> rfl

theorem V1_v14 (c : Dev nD) : V1 m ρ c main_v14 = (truncf .bf16 (m ((c : Thread nD τ).loc main_arg2) : FVec Ideal S128x128 .f32) bitsLt_bf16_f32 : FVec Ideal S128x128 .bf16) := by
  show StableHlo.after (hostOps0 (F := Ideal)) (W0 m ρ c) (Proc.devRef .tc main_v14) = _
  after_results_simp <;> rfl

theorem V1_v15 (c : Dev nD) : V1 m ρ c main_v15 = (truncf .bf16 (m ((c : Thread nD τ).loc main_arg4) : FVec Ideal S128x128 .f32) bitsLt_bf16_f32 : FVec Ideal S128x128 .bf16) := by
  show StableHlo.after (hostOps0 (F := Ideal)) (W0 m ρ c) (Proc.devRef .tc main_v15) = _
  after_results_simp <;> rfl

theorem V1_v16 (c : Dev nD) : V1 m ρ c main_v16 = shapeCast S1x128 (m ((c : Thread nD τ).loc main_arg3)) shapeCasts_S128_S1x128 := by
  show StableHlo.after (hostOps0 (F := Ideal)) (W0 m ρ c) (Proc.devRef .tc main_v16) = _
  after_results_simp <;> rfl

theorem V1_v17 (c : Dev nD) : V1 m ρ c main_v17 = shapeCast S1x128 (m ((c : Thread nD τ).loc main_arg5)) shapeCasts_S128_S1x128 := by
  show StableHlo.after (hostOps0 (F := Ideal)) (W0 m ρ c) (Proc.devRef .tc main_v17) = _
  after_results_simp <;> rfl

/-! ## Buffers carried unchanged across the first two launches and the stretch between them -/

theorem W1_arg6 (c : Dev nD) : W1 m ρ c (Proc.devRef .tc main_arg6) = m ((c : Thread nD τ).loc main_arg6) := by
  show StableHlo.after (hostOps0 (F := Ideal)) (W0 m ρ c) (Proc.devRef .tc main_arg6) = _
  after_results_simp <;> rfl

theorem W1_arg7 (c : Dev nD) : W1 m ρ c (Proc.devRef .tc main_arg7) = m ((c : Thread nD τ).loc main_arg7) := by
  show StableHlo.after (hostOps0 (F := Ideal)) (W0 m ρ c) (Proc.devRef .tc main_arg7) = _
  after_results_simp <;> rfl

theorem W1_arg8 (c : Dev nD) : W1 m ρ c (Proc.devRef .tc main_arg8) = m ((c : Thread nD τ).loc main_arg8) := by
  show StableHlo.after (hostOps0 (F := Ideal)) (W0 m ρ c) (Proc.devRef .tc main_arg8) = _
  after_results_simp <;> rfl

theorem W1_arg9 (c : Dev nD) : W1 m ρ c (Proc.devRef .tc main_arg9) = m ((c : Thread nD τ).loc main_arg9) := by
  show StableHlo.after (hostOps0 (F := Ideal)) (W0 m ρ c) (Proc.devRef .tc main_arg9) = _
  after_results_simp <;> rfl

theorem W1_arg10 (c : Dev nD) : W1 m ρ c (Proc.devRef .tc main_arg10) = m ((c : Thread nD τ).loc main_arg10) := by
  show StableHlo.after (hostOps0 (F := Ideal)) (W0 m ρ c) (Proc.devRef .tc main_arg10) = _
  after_results_simp <;> rfl

theorem W1_arg11 (c : Dev nD) : W1 m ρ c (Proc.devRef .tc main_arg11) = m ((c : Thread nD τ).loc main_arg11) := by
  show StableHlo.after (hostOps0 (F := Ideal)) (W0 m ρ c) (Proc.devRef .tc main_arg11) = _
  after_results_simp <;> rfl

theorem W1_arg12 (c : Dev nD) : W1 m ρ c (Proc.devRef .tc main_arg12) = m ((c : Thread nD τ).loc main_arg12) := by
  show StableHlo.after (hostOps0 (F := Ideal)) (W0 m ρ c) (Proc.devRef .tc main_arg12) = _
  after_results_simp <;> rfl

theorem W1_arg13 (c : Dev nD) : W1 m ρ c (Proc.devRef .tc main_arg13) = m ((c : Thread nD τ).loc main_arg13) := by
  show StableHlo.after (hostOps0 (F := Ideal)) (W0 m ρ c) (Proc.devRef .tc main_arg13) = _
  after_results_simp <;> rfl

theorem W2_v1 (c : Dev nD) : W2 m ρ c (Proc.devRef .tc main_v1) = W1 m ρ c (Proc.devRef .tc main_v1) :=
  W2_of_ne m ρ c main_v1 (by decide)
theorem W3_v1 (c : Dev nD) : W3 m ρ c (Proc.devRef .tc main_v1) = W2 m ρ c (Proc.devRef .tc main_v1) := by
  show StableHlo.after (hostOps1 (F := Ideal)) (W2 m ρ c) (Proc.devRef .tc main_v1) = _
  after_results_simp <;> rfl
theorem W4_v1 (c : Dev nD) : W4 m ρ c (Proc.devRef .tc main_v1) = W3 m ρ c (Proc.devRef .tc main_v1) :=
  W4_of_ne m ρ c main_v1 (by decide)

theorem W2_v3 (c : Dev nD) : W2 m ρ c (Proc.devRef .tc main_v3) = W1 m ρ c (Proc.devRef .tc main_v3) :=
  W2_of_ne m ρ c main_v3 (by decide)
theorem W3_v3 (c : Dev nD) : W3 m ρ c (Proc.devRef .tc main_v3) = W2 m ρ c (Proc.devRef .tc main_v3) := by
  show StableHlo.after (hostOps1 (F := Ideal)) (W2 m ρ c) (Proc.devRef .tc main_v3) = _
  after_results_simp <;> rfl
theorem W4_v3 (c : Dev nD) : W4 m ρ c (Proc.devRef .tc main_v3) = W3 m ρ c (Proc.devRef .tc main_v3) :=
  W4_of_ne m ρ c main_v3 (by decide)

theorem W2_arg6 (c : Dev nD) : W2 m ρ c (Proc.devRef .tc main_arg6) = W1 m ρ c (Proc.devRef .tc main_arg6) :=
  W2_of_ne m ρ c main_arg6 (by decide)
theorem W3_arg6 (c : Dev nD) : W3 m ρ c (Proc.devRef .tc main_arg6) = W2 m ρ c (Proc.devRef .tc main_arg6) := by
  show StableHlo.after (hostOps1 (F := Ideal)) (W2 m ρ c) (Proc.devRef .tc main_arg6) = _
  after_results_simp <;> rfl
theorem W4_arg6 (c : Dev nD) : W4 m ρ c (Proc.devRef .tc main_arg6) = W3 m ρ c (Proc.devRef .tc main_arg6) :=
  W4_of_ne m ρ c main_arg6 (by decide)

theorem W2_arg7 (c : Dev nD) : W2 m ρ c (Proc.devRef .tc main_arg7) = W1 m ρ c (Proc.devRef .tc main_arg7) :=
  W2_of_ne m ρ c main_arg7 (by decide)
theorem W3_arg7 (c : Dev nD) : W3 m ρ c (Proc.devRef .tc main_arg7) = W2 m ρ c (Proc.devRef .tc main_arg7) := by
  show StableHlo.after (hostOps1 (F := Ideal)) (W2 m ρ c) (Proc.devRef .tc main_arg7) = _
  after_results_simp <;> rfl
theorem W4_arg7 (c : Dev nD) : W4 m ρ c (Proc.devRef .tc main_arg7) = W3 m ρ c (Proc.devRef .tc main_arg7) :=
  W4_of_ne m ρ c main_arg7 (by decide)

theorem W2_arg8 (c : Dev nD) : W2 m ρ c (Proc.devRef .tc main_arg8) = W1 m ρ c (Proc.devRef .tc main_arg8) :=
  W2_of_ne m ρ c main_arg8 (by decide)
theorem W3_arg8 (c : Dev nD) : W3 m ρ c (Proc.devRef .tc main_arg8) = W2 m ρ c (Proc.devRef .tc main_arg8) := by
  show StableHlo.after (hostOps1 (F := Ideal)) (W2 m ρ c) (Proc.devRef .tc main_arg8) = _
  after_results_simp <;> rfl
theorem W4_arg8 (c : Dev nD) : W4 m ρ c (Proc.devRef .tc main_arg8) = W3 m ρ c (Proc.devRef .tc main_arg8) :=
  W4_of_ne m ρ c main_arg8 (by decide)

theorem W2_arg9 (c : Dev nD) : W2 m ρ c (Proc.devRef .tc main_arg9) = W1 m ρ c (Proc.devRef .tc main_arg9) :=
  W2_of_ne m ρ c main_arg9 (by decide)
theorem W3_arg9 (c : Dev nD) : W3 m ρ c (Proc.devRef .tc main_arg9) = W2 m ρ c (Proc.devRef .tc main_arg9) := by
  show StableHlo.after (hostOps1 (F := Ideal)) (W2 m ρ c) (Proc.devRef .tc main_arg9) = _
  after_results_simp <;> rfl
theorem W4_arg9 (c : Dev nD) : W4 m ρ c (Proc.devRef .tc main_arg9) = W3 m ρ c (Proc.devRef .tc main_arg9) :=
  W4_of_ne m ρ c main_arg9 (by decide)

theorem W2_arg10 (c : Dev nD) : W2 m ρ c (Proc.devRef .tc main_arg10) = W1 m ρ c (Proc.devRef .tc main_arg10) :=
  W2_of_ne m ρ c main_arg10 (by decide)
theorem W3_arg10 (c : Dev nD) : W3 m ρ c (Proc.devRef .tc main_arg10) = W2 m ρ c (Proc.devRef .tc main_arg10) := by
  show StableHlo.after (hostOps1 (F := Ideal)) (W2 m ρ c) (Proc.devRef .tc main_arg10) = _
  after_results_simp <;> rfl
theorem W4_arg10 (c : Dev nD) : W4 m ρ c (Proc.devRef .tc main_arg10) = W3 m ρ c (Proc.devRef .tc main_arg10) :=
  W4_of_ne m ρ c main_arg10 (by decide)

theorem W2_arg11 (c : Dev nD) : W2 m ρ c (Proc.devRef .tc main_arg11) = W1 m ρ c (Proc.devRef .tc main_arg11) :=
  W2_of_ne m ρ c main_arg11 (by decide)
theorem W3_arg11 (c : Dev nD) : W3 m ρ c (Proc.devRef .tc main_arg11) = W2 m ρ c (Proc.devRef .tc main_arg11) := by
  show StableHlo.after (hostOps1 (F := Ideal)) (W2 m ρ c) (Proc.devRef .tc main_arg11) = _
  after_results_simp <;> rfl
theorem W4_arg11 (c : Dev nD) : W4 m ρ c (Proc.devRef .tc main_arg11) = W3 m ρ c (Proc.devRef .tc main_arg11) :=
  W4_of_ne m ρ c main_arg11 (by decide)

theorem W2_arg12 (c : Dev nD) : W2 m ρ c (Proc.devRef .tc main_arg12) = W1 m ρ c (Proc.devRef .tc main_arg12) :=
  W2_of_ne m ρ c main_arg12 (by decide)
theorem W3_arg12 (c : Dev nD) : W3 m ρ c (Proc.devRef .tc main_arg12) = W2 m ρ c (Proc.devRef .tc main_arg12) := by
  show StableHlo.after (hostOps1 (F := Ideal)) (W2 m ρ c) (Proc.devRef .tc main_arg12) = _
  after_results_simp <;> rfl
theorem W4_arg12 (c : Dev nD) : W4 m ρ c (Proc.devRef .tc main_arg12) = W3 m ρ c (Proc.devRef .tc main_arg12) :=
  W4_of_ne m ρ c main_arg12 (by decide)

theorem W2_arg13 (c : Dev nD) : W2 m ρ c (Proc.devRef .tc main_arg13) = W1 m ρ c (Proc.devRef .tc main_arg13) :=
  W2_of_ne m ρ c main_arg13 (by decide)
theorem W3_arg13 (c : Dev nD) : W3 m ρ c (Proc.devRef .tc main_arg13) = W2 m ρ c (Proc.devRef .tc main_arg13) := by
  show StableHlo.after (hostOps1 (F := Ideal)) (W2 m ρ c) (Proc.devRef .tc main_arg13) = _
  after_results_simp <;> rfl
theorem W4_arg13 (c : Dev nD) : W4 m ρ c (Proc.devRef .tc main_arg13) = W3 m ρ c (Proc.devRef .tc main_arg13) :=
  W4_of_ne m ρ c main_arg13 (by decide)

/-! ## Before the second launch -/

set_option maxHeartbeats 4000000 in
theorem V3_v28 (c : Dev nD) : V3 m ρ c main_v28
    = aggOf (W2 m ρ c (Proc.devRef .tc main_v1)) (W2 m ρ c (Proc.devRef .tc main_v3)) (W2 m ρ c (Proc.devRef .tc main_v18)) := by
  show StableHlo.after (hostOps1 (F := Ideal)) (W2 m ρ c) (Proc.devRef .tc main_v28) = _
  after_results_simp <;> rfl

theorem V3_v18 (c : Dev nD) : V3 m ρ c main_v18 = W2 m ρ c (Proc.devRef .tc main_v18) := by
  show StableHlo.after (hostOps1 (F := Ideal)) (W2 m ρ c) (Proc.devRef .tc main_v18) = _
  after_results_simp <;> rfl

theorem V3_v29 (c : Dev nD) : V3 m ρ c main_v29 = (truncf .bf16 (W2 m ρ c (Proc.devRef .tc main_arg6) : FVec Ideal S128x128 .f32) bitsLt_bf16_f32 : FVec Ideal S128x128 .bf16) := by
  show StableHlo.after (hostOps1 (F := Ideal)) (W2 m ρ c) (Proc.devRef .tc main_v29) = _
  after_results_simp <;> rfl

theorem V3_v30 (c : Dev nD) : V3 m ρ c main_v30 = (truncf .bf16 (W2 m ρ c (Proc.devRef .tc main_arg8) : FVec Ideal S128x128 .f32) bitsLt_bf16_f32 : FVec Ideal S128x128 .bf16) := by
  show StableHlo.after (hostOps1 (F := Ideal)) (W2 m ρ c) (Proc.devRef .tc main_v30) = _
  after_results_simp <;> rfl

theorem V3_v31 (c : Dev nD) : V3 m ρ c main_v31 = shapeCast S1x128 (W2 m ρ c (Proc.devRef .tc main_arg7)) shapeCasts_S128_S1x128 := by
  show StableHlo.after (hostOps1 (F := Ideal)) (W2 m ρ c) (Proc.devRef .tc main_v31) = _
  after_results_simp <;> rfl

theorem V3_v32 (c : Dev nD) : V3 m ρ c main_v32 = shapeCast S1x128 (W2 m ρ c (Proc.devRef .tc main_arg9)) shapeCasts_S128_S1x128 := by
  show StableHlo.after (hostOps1 (F := Ideal)) (W2 m ρ c) (Proc.devRef .tc main_v32) = _
  after_results_simp <;> rfl

/-! ## Before the third launch -/

set_option maxHeartbeats 4000000 in
theorem V5_v43 (c : Dev nD) : V5 m ρ c main_v43
    = aggOf (W4 m ρ c (Proc.devRef .tc main_v1)) (W4 m ρ c (Proc.devRef .tc main_v3)) (W4 m ρ c (Proc.devRef .tc main_v33)) := by
  show StableHlo.after (hostOps2 (F := Ideal)) (W4 m ρ c) (Proc.devRef .tc main_v43) = _
  after_results_simp <;> rfl

theorem V5_v33 (c : Dev nD) : V5 m ρ c main_v33 = W4 m ρ c (Proc.devRef .tc main_v33) := by
  show StableHlo.after (hostOps2 (F := Ideal)) (W4 m ρ c) (Proc.devRef .tc main_v33) = _
  after_results_simp <;> rfl

theorem V5_v44 (c : Dev nD) : V5 m ρ c main_v44 = (truncf .bf16 (W4 m ρ c (Proc.devRef .tc main_arg10) : FVec Ideal S128x128 .f32) bitsLt_bf16_f32 : FVec Ideal S128x128 .bf16) := by
  show StableHlo.after (hostOps2 (F := Ideal)) (W4 m ρ c) (Proc.devRef .tc main_v44) = _
  after_results_simp <;> rfl

theorem V5_v45 (c : Dev nD) : V5 m ρ c main_v45 = (truncf .bf16 (W4 m ρ c (Proc.devRef .tc main_arg12) : FVec Ideal S128x1 .f32) bitsLt_bf16_f32 : FVec Ideal S128x1 .bf16) := by
  show StableHlo.after (hostOps2 (F := Ideal)) (W4 m ρ c) (Proc.devRef .tc main_v45) = _
  after_results_simp <;> rfl

theorem V5_v46 (c : Dev nD) : V5 m ρ c main_v46 = shapeCast S1x128 (W4 m ρ c (Proc.devRef .tc main_arg11)) shapeCasts_S128_S1x128 := by
  show StableHlo.after (hostOps2 (F := Ideal)) (W4 m ρ c) (Proc.devRef .tc main_v46) = _
  after_results_simp <;> rfl

theorem V5_v47 (c : Dev nD) : V5 m ρ c main_v47 = shapeCast S1x1 (W4 m ρ c (Proc.devRef .tc main_arg13)) shapeCasts_S1_S1x1 := by
  show StableHlo.after (hostOps2 (F := Ideal)) (W4 m ρ c) (Proc.devRef .tc main_v47) = _
  after_results_simp <;> rfl

end Cert.KernelIdeal.Stretch

end
-- ==== Proof.KernelValue.lean ====
/-
  The kernel program's result array is the network of the specification.

  Followed boundary by boundary: before each launch the host aggregates the current features and prepares the
  layer's weights and biases; the launch leaves the layer of what it finds in its output array; the next stretch
  reads that array. The first launch's output is the first layer of the arguments, the second's the second layer
  over it, and the third's — the program's result — the last layer over that: the network. The roundings of the
  weights to bf16 are the identity on the extended reals, and the one row of a bias vector recast as a one-row
  matrix is the vector.
-/
import proofs.«112989_j22892175688472_1_alg».proof.Proof.Layer0
import proofs.«112989_j22892175688472_1_alg».proof.Proof.Layer1
import proofs.«112989_j22892175688472_1_alg».proof.Proof.Layer2
import proofs.«112989_j22892175688472_1_alg».proof.Proof.HostStretches

set_option maxRecDepth 16384

noncomputable section

namespace Cert.KernelIdeal.KernelValue

open Idealize.ShloMosaic Idealize.ShloMosaic.TcCoe Idealize.ShloMosaic.ValueIdx
open Idealize.SL Idealize.SL.Sem
open Cert.KernelIdeal Cert.KernelIdeal.Gen Cert.KernelIdeal.Stretch Cert.Gin

/-- The one row of a vector recast as a one-row matrix is the vector. -/
theorem row1_cast {n : ℕ} (b : FVec Ideal ⟨1, ![n]⟩ .f32) (h : (⟨1, ![n]⟩ : Shape).ShapeCasts ⟨2, ![1, n]⟩) :
    row1 (shapeCast ⟨2, ![1, n]⟩ b h) = vec1 b :=
  funext fun k => shapeCast_a_1a_apply b h 0 k

variable (m : (ℓ : Loc nD τ sig) → Buf (Elt Ideal) ℓ) (ρ : Dev nD → PrngReg)

/-! ## The arguments as launched, and the three layers of them -/

abbrev a0 (c : Dev nD) : FVec Ideal S100000x128 .f32 := m ((c : Thread nD τ).loc main_arg0)
abbrev a1 (c : Dev nD) : IVec S2x1600000 32 := m ((c : Thread nD τ).loc main_arg1)
abbrev a2 (c : Dev nD) : FVec Ideal S128x128 .f32 := m ((c : Thread nD τ).loc main_arg2)
abbrev a3 (c : Dev nD) : FVec Ideal S128 .f32 := m ((c : Thread nD τ).loc main_arg3)
abbrev a4 (c : Dev nD) : FVec Ideal S128x128 .f32 := m ((c : Thread nD τ).loc main_arg4)
abbrev a5 (c : Dev nD) : FVec Ideal S128 .f32 := m ((c : Thread nD τ).loc main_arg5)
abbrev a6 (c : Dev nD) : FVec Ideal S128x128 .f32 := m ((c : Thread nD τ).loc main_arg6)
abbrev a7 (c : Dev nD) : FVec Ideal S128 .f32 := m ((c : Thread nD τ).loc main_arg7)
abbrev a8 (c : Dev nD) : FVec Ideal S128x128 .f32 := m ((c : Thread nD τ).loc main_arg8)
abbrev a9 (c : Dev nD) : FVec Ideal S128 .f32 := m ((c : Thread nD τ).loc main_arg9)
abbrev a10 (c : Dev nD) : FVec Ideal S128x128 .f32 := m ((c : Thread nD τ).loc main_arg10)
abbrev a11 (c : Dev nD) : FVec Ideal S128 .f32 := m ((c : Thread nD τ).loc main_arg11)
abbrev a12 (c : Dev nD) : FVec Ideal S128x1 .f32 := m ((c : Thread nD τ).loc main_arg12)
abbrev a13 (c : Dev nD) : FVec Ideal S1 .f32 := m ((c : Thread nD τ).loc main_arg13)

/-- The aggregation over the launched edge array. -/
abbrev agg (c : Dev nD) : FVec Ideal S100000x128 .f32 → FVec Ideal S100000x128 .f32 :=
  aggOf (srcOf (a1 m c)) (dstOf (a1 m c))

/-- The first layer of the arguments. -/
abbrev H1 (c : Dev nD) : (⟨2, ![100000, 128]⟩ : Shape).Idx → EReal :=
  arr2 (layerRelu (agg m c (a0 m c)) (a0 m c) (a2 m c) (vec1 (a3 m c)) (a4 m c) (vec1 (a5 m c)))

/-- The second layer, over the first. -/
abbrev H2 (c : Dev nD) : (⟨2, ![100000, 128]⟩ : Shape).Idx → EReal :=
  arr2 (layerRelu (agg m c (H1 m c)) (H1 m c) (a6 m c) (vec1 (a7 m c)) (a8 m c) (vec1 (a9 m c)))

/-- The third layer, over the second. -/
abbrev H3 (c : Dev nD) : (⟨2, ![100000, 1]⟩ : Shape).Idx → EReal :=
  arr2 (layerLin (agg m c (H2 m c)) (H2 m c) (a10 m c) (vec1 (a11 m c)) (a12 m c) (vec1 (a13 m c)))

/-! ## The launches' outputs -/

/-- After the first launch its output array holds the first layer. -/
theorem out0 (c : Dev nD) : W2 m ρ c (Proc.devRef .tc main_v18) = H1 m c := by
  refine (W2_arr m ρ c 6).trans ?_
  rw [Layer0.final (V1 m ρ) c]
  dsimp only [Layer0.G]
  rw [V1_v13 m ρ c, V1_arg0 m ρ c, V1_v14 m ρ c, V1_v15 m ρ c, V1_v16 m ρ c, V1_v17 m ρ c, row1_cast, row1_cast]
  rfl

/-- After the second launch its output array holds the second layer. -/
theorem out1 (c : Dev nD) : W4 m ρ c (Proc.devRef .tc main_v33) = H2 m c := by
  refine (W4_arr m ρ c 6).trans ?_
  rw [Layer1.final (V3 m ρ) c]
  dsimp only [Layer1.G]
  rw [V3_v28 m ρ c, V3_v18 m ρ c, V3_v29 m ρ c, V3_v30 m ρ c, V3_v31 m ρ c, V3_v32 m ρ c, row1_cast, row1_cast,
    out0 m ρ c, W2_v1 m ρ c, W2_v3 m ρ c, W1_v1 m ρ c, W1_v3 m ρ c,
    W2_arg6 m ρ c, W2_arg7 m ρ c, W2_arg8 m ρ c, W2_arg9 m ρ c,
    W1_arg6 m ρ c, W1_arg7 m ρ c, W1_arg8 m ρ c, W1_arg9 m ρ c]
  rfl

/-- After the third launch its output array, the program's result, holds the third layer. -/
theorem out2 (c : Dev nD) : W6 m ρ c (Proc.devRef .tc main_v48) = H3 m c := by
  refine (W6_arr m ρ c 6).trans ?_
  rw [Layer2.final (V5 m ρ) c]
  dsimp only [Layer2.G]
  rw [V5_v43 m ρ c, V5_v33 m ρ c, V5_v44 m ρ c, V5_v45 m ρ c, V5_v46 m ρ c, V5_v47 m ρ c, row1_cast, row1_cast,
    out1 m ρ c, W4_v1 m ρ c, W4_v3 m ρ c, W3_v1 m ρ c, W3_v3 m ρ c, W2_v1 m ρ c, W2_v3 m ρ c, W1_v1 m ρ c, W1_v3 m ρ c,
    W4_arg10 m ρ c, W4_arg11 m ρ c, W4_arg12 m ρ c, W4_arg13 m ρ c,
    W3_arg10 m ρ c, W3_arg11 m ρ c, W3_arg12 m ρ c, W3_arg13 m ρ c,
    W2_arg10 m ρ c, W2_arg11 m ρ c, W2_arg12 m ρ c, W2_arg13 m ρ c,
    W1_arg10 m ρ c, W1_arg11 m ρ c, W1_arg12 m ρ c, W1_arg13 m ρ c]
  rfl

/-- The program's result is the specification's network of the arguments as launched. -/
theorem result_eq (c : Dev nD) : W6 m ρ c (Proc.devRef .tc main_v48)
    = net (agg m c) (a0 m c) (a2 m c) (vec1 (a3 m c)) (a4 m c) (vec1 (a5 m c)) (a6 m c) (vec1 (a7 m c)) (a8 m c) (vec1 (a9 m c))
        (a10 m c) (vec1 (a11 m c)) (a12 m c) (vec1 (a13 m c)) :=
  (out2 m ρ c).trans rfl

end Cert.KernelIdeal.KernelValue

end
-- ==== Proof.RefValue.lean ====
/-
  The reference program's result is the network of the specification.

  The reference computes each layer on whole arrays: the aggregation, the sum with the features, a product with the
  first weights plus the first bias laid along the rows, the maximum with zero, a product with the second weights
  plus the second bias — and, for the first two layers, another maximum with zero. Read at entry (p, q) that is the
  specification's layer entry (`hostLayerRelu`, `hostLayerLin`), the two products being plain sums at the ideal
  values. The three layers of the generated run's term are then the specification's network, the aggregation kept
  as the one function `aggOf` of the source positions, the destination positions and the features.
-/
import proofs.«112989_j22892175688472_1_alg».proof.Proof.Gen.ReferenceIdeal.Read
import proofs.«112989_j22892175688472_1_alg».proof.Proof.DenseSteps

set_option maxRecDepth 16384

noncomputable section

namespace Cert.ReferenceIdeal.RefValue

open Idealize.ShloMosaic Idealize.ShloMosaic.TcCoe Idealize.ShloMosaic.ValueIdx
open Idealize.SL Idealize.SL.Sem
open Cert.ReferenceIdeal Cert.ReferenceIdeal.Gen Cert.ReferenceIdeal.Read Cert.Gin

/-- The edges' source positions: row 0 of the edge array as a vector. -/
def srcOf (e : IVec S2x1600000 32) : IVec S1600000 32 :=
  shapeCast S1600000 (extractStridedSlice S1x1600000 ![0, 0] e slices_S2x1600000_S1x1600000_0_0) shapeCasts_S1x1600000_S1600000

/-- The edges' destination positions: row 1 of the edge array as a vector. -/
def dstOf (e : IVec S2x1600000 32) : IVec S1600000 32 :=
  shapeCast S1600000 (extractStridedSlice S1x1600000 ![1, 0] e slices_S2x1600000_S1x1600000_1_0) shapeCasts_S1x1600000_S1600000

/-- The aggregation as the host spells it: gather the rows at the source positions (a negative position counted
    from the end), and add them into the zero array at the destination positions. Never opened: both programs
    apply exactly these operations. -/
def aggOf (src dst : IVec S1600000 32) (x : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The zero array at an entry is the float zero. -/
theorem zeros_apply {s : Shape} (h : S_.BroadcastsInDim s (![] : Fin 0 → Fin s.rank)) (i : s.Idx) :
    broadcastInDim s ![] h (constant (F := Ideal) S_ .f32 0x00000000#32) i = Z :=
  broadcastInDim_apply ![] h _ i ix0 (fun a => a.elim0)

/-- The hidden rows in the host's spelling: entry (p, k) is the first dense step of the summed rows, then the
    maximum with zero. -/
theorem hostHidden_apply (a x : FVec Ideal S100000x128 .f32) (Wa : FVec Ideal S128x128 .f32) (ba : FVec Ideal S128 .f32)
    (p : Fin 100000) (k : Fin 128) :
    maximumf (addf (Host.dotGeneral dot_S100000x128_S128x128_S100000x128_1_0_0_1_n_n none (addf a x) Wa)
        (broadcastInDim S100000x128 ![0, 1] bcast_S1x128_S100000x128_0_1 (broadcastInDim S1x128 ![1] bcast_S128_S1x128_1 ba)))
      (broadcastInDim S100000x128 ![] bcast_S_S100000x128 (constant (F := Ideal) S_ .f32 0x00000000#32)) (ix2 p k)
      = max (denseRow (fun j => a (ix2 p j) + x (ix2 p j)) Wa (vec1 ba) k) Z := by
  rw [maximumf_apply, zeros_apply,
    hostDense_apply dot_S100000x128_S128x128_S100000x128_1_0_0_1_n_n rfl rfl lhs_main_v15_0 lhs_main_v15_1 rhs_main_v15_0 rhs_main_v15_1]
  rfl

/-- A layer closed by the maximum with zero, in the host's spelling, is the specification's. -/
theorem hostLayerRelu (a x : FVec Ideal S100000x128 .f32) (Wa : FVec Ideal S128x128 .f32) (ba : FVec Ideal S128 .f32)
    (Wb : FVec Ideal S128x128 .f32) (bb : FVec Ideal S128 .f32) :
    maximumf (addf (Host.dotGeneral dot_S100000x128_S128x128_S100000x128_1_0_0_1_n_n none
        (maximumf (addf (Host.dotGeneral dot_S100000x128_S128x128_S100000x128_1_0_0_1_n_n none (addf a x) Wa)
            (broadcastInDim S100000x128 ![0, 1] bcast_S1x128_S100000x128_0_1 (broadcastInDim S1x128 ![1] bcast_S128_S1x128_1 ba)))
          (broadcastInDim S100000x128 ![] bcast_S_S100000x128 (constant (F := Ideal) S_ .f32 0x00000000#32))) Wb)
        (broadcastInDim S100000x128 ![0, 1] bcast_S1x128_S100000x128_0_1 (broadcastInDim S1x128 ![1] bcast_S128_S1x128_1 bb)))
      (broadcastInDim S100000x128 ![] bcast_S_S100000x128 (constant (F := Ideal) S_ .f32 0x00000000#32))
      = arr2 (layerRelu a x Wa (vec1 ba) Wb (vec1 bb)) := by
  funext i
  obtain ⟨p, q, rfl⟩ : ∃ (p : Fin 100000) (q : Fin 128), i = ix2 p q := ⟨i 0, i 1, eq_ix2 i⟩
  rw [maximumf_apply, zeros_apply,
    hostDense_apply dot_S100000x128_S128x128_S100000x128_1_0_0_1_n_n rfl rfl lhs_main_v15_0 lhs_main_v15_1 rhs_main_v15_0 rhs_main_v15_1]
  rw [arr2_ix2]
  unfold layerRelu layerLin mlpRow
  refine congrArg (fun h => max (denseRow h Wb (vec1 bb) q) _) (funext fun k => ?_)
  exact hostHidden_apply a x Wa ba p k

/-- The last layer (one output column, no closing maximum) in the host's spelling is the specification's. -/
theorem hostLayerLin (a x : FVec Ideal S100000x128 .f32) (Wa : FVec Ideal S128x128 .f32) (ba : FVec Ideal S128 .f32)
    (Wb : FVec Ideal S128x1 .f32) (bb : FVec Ideal S1 .f32) :
    addf (Host.dotGeneral dot_S100000x128_S128x1_S100000x1_1_0_0_1_n_n none
        (maximumf (addf (Host.dotGeneral dot_S100000x128_S128x128_S100000x128_1_0_0_1_n_n none (addf a x) Wa)
            (broadcastInDim S100000x128 ![0, 1] bcast_S1x128_S100000x128_0_1 (broadcastInDim S1x128 ![1] bcast_S128_S1x128_1 ba)))
          (broadcastInDim S100000x128 ![] bcast_S_S100000x128 (constant (F := Ideal) S_ .f32 0x00000000#32))) Wb)
        (broadcastInDim S100000x1 ![0, 1] bcast_S1x1_S100000x1_0_1 (broadcastInDim S1x1 ![1] bcast_S1_S1x1_1 bb))
      = arr2 (layerLin a x Wa (vec1 ba) Wb (vec1 bb)) := by
  funext i
  obtain ⟨p, q, rfl⟩ : ∃ (p : Fin 100000) (q : Fin 1), i = ix2 p q := ⟨i 0, i 1, eq_ix2 i⟩
  rw [hostDense_apply dot_S100000x128_S128x1_S100000x1_1_0_0_1_n_n rfl rfl lhs_main_v67_0 lhs_main_v67_1 rhs_main_v67_0 rhs_main_v67_1]
  rw [arr2_ix2]
  unfold layerLin mlpRow
  refine congrArg (fun h => denseRow h Wb (vec1 bb) q) (funext fun k => ?_)
  exact hostHidden_apply a x Wa ba p k

variable (x0 : FVec Ideal S100000x128 .f32) (x1 : IVec S2x1600000 32)
  (x2 : FVec Ideal S128x128 .f32) (x3 : FVec Ideal S128 .f32) (x4 : FVec Ideal S128x128 .f32) (x5 : FVec Ideal S128 .f32)
  (x6 : FVec Ideal S128x128 .f32) (x7 : FVec Ideal S128 .f32) (x8 : FVec Ideal S128x128 .f32) (x9 : FVec Ideal S128 .f32)
  (x10 : FVec Ideal S128x128 .f32) (x11 : FVec Ideal S128 .f32) (x12 : FVec Ideal S128x1 .f32) (x13 : FVec Ideal S1 .f32)

/-- The first layer's stage of the reference. -/
theorem layer1_eq : val_main_v26 (F := Ideal) x0 x1 x2 x3 x4 x5
    = arr2 (layerRelu (aggOf (srcOf x1) (dstOf x1) x0) x0 x2 (vec1 x3) x4 (vec1 x5)) :=
  hostLayerRelu (aggOf (srcOf x1) (dstOf x1) x0) x0 x2 x3 x4 x5

/-- The second layer's stage, over the first's. -/
theorem layer2_eq : val_main_v49 (F := Ideal) x0 x1 x2 x3 x4 x5 x6 x7 x8 x9
    = arr2 (layerRelu (aggOf (srcOf x1) (dstOf x1) (val_main_v26 (F := Ideal) x0 x1 x2 x3 x4 x5))
        (val_main_v26 (F := Ideal) x0 x1 x2 x3 x4 x5) x6 (vec1 x7) x8 (vec1 x9)) :=
  hostLayerRelu (aggOf (srcOf x1) (dstOf x1) (val_main_v26 (F := Ideal) x0 x1 x2 x3 x4 x5))
    (val_main_v26 (F := Ideal) x0 x1 x2 x3 x4 x5) x6 x7 x8 x9

/-- The third layer's stage, over the second's. -/
theorem layer3_eq : val_main_v70 (F := Ideal) x0 x1 x2 x3 x4 x5 x6 x7 x8 x9 x10 x11 x12 x13
    = arr2 (layerLin (aggOf (srcOf x1) (dstOf x1) (val_main_v49 (F := Ideal) x0 x1 x2 x3 x4 x5 x6 x7 x8 x9))
        (val_main_v49 (F := Ideal) x0 x1 x2 x3 x4 x5 x6 x7 x8 x9) x10 (vec1 x11) x12 (vec1 x13)) :=
  hostLayerLin (aggOf (srcOf x1) (dstOf x1) (val_main_v49 (F := Ideal) x0 x1 x2 x3 x4 x5 x6 x7 x8 x9))
    (val_main_v49 (F := Ideal) x0 x1 x2 x3 x4 x5 x6 x7 x8 x9) x10 x11 x12 x13

/-- The reference's result is the specification's network of its arguments. -/
theorem result_eq : val_main_v70 (F := Ideal) x0 x1 x2 x3 x4 x5 x6 x7 x8 x9 x10 x11 x12 x13
    = net (aggOf (srcOf x1) (dstOf x1)) x0 x2 (vec1 x3) x4 (vec1 x5) x6 (vec1 x7) x8 (vec1 x9) x10 (vec1 x11) x12 (vec1 x13) := by
  rw [layer3_eq, layer2_eq, layer1_eq]
  rfl

end Cert.ReferenceIdeal.RefValue

end
-- ==== Proof.lean ====
/-
  The certificate of a three-layer graph network: a kernel program against its reference.

  Both programs compute, three times over, an aggregation of the node features along the edges (gather the source
  rows, add them into the destination rows) followed by a two-step perceptron on every node's row; the first two
  layers end in a maximum with zero. The reference does each layer on whole arrays. The kernel program does the
  aggregation with the same host operations and hands the perceptron to a kernel launched over 20 blocks of 5000
  rows, with the weights rounded to bf16 on the way into the products.

  On the extended reals the two agree entry by entry, with no condition on the inputs: a change of float format is
  the identity, a product into a zero accumulator and the host's product are the same finite sum, a layer's row
  depends only on that row of its inputs (so computing it block by block changes nothing), and the aggregation is
  the same function in both programs. Both results are the network `Cert.Gin.net` of the arguments
  (Proof/Spec.lean): the kernel program's by following its buffers from boundary to boundary (Proof/WholeRun.lean,
  Proof/Layer0–2.lean, Proof/HostStretches.lean, Proof/KernelValue.lean), the reference's by reading its run's term
  (Proof/RefValue.lean).

  The three frames are the generated ones; the idealization rewrote nothing, so `preserves` asks nothing.
-/
import proofs.«112989_j22892175688472_1_alg».proof.Defs
import proofs.«112989_j22892175688472_1_alg».proof.Proof.Gen.Kernel
import proofs.«112989_j22892175688472_1_alg».proof.Proof.Gen.Kernel.Frame
import proofs.«112989_j22892175688472_1_alg».proof.Proof.Gen.KernelIdeal
import proofs.«112989_j22892175688472_1_alg».proof.Proof.Gen.KernelIdeal.Frame
import proofs.«112989_j22892175688472_1_alg».proof.Proof.Gen.ReferenceIdeal
import proofs.«112989_j22892175688472_1_alg».proof.Proof.Gen.ReferenceIdeal.Run
import proofs.«112989_j22892175688472_1_alg».proof.Proof.Gen.ReferenceIdeal.Read
import proofs.«112989_j22892175688472_1_alg».proof.Proof.Gen.Pre_finite_inputs
import proofs.«112989_j22892175688472_1_alg».proof.Proof.WholeRun
import proofs.«112989_j22892175688472_1_alg».proof.Proof.KernelValue
import proofs.«112989_j22892175688472_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame. -/
theorem frame_kernel : Cert.frame_Kernel := fun m ρ _ => Cert.Kernel.Gen.frame m ρ

/-- The idealized kernel program runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The aggregation is spelt with the same host operations in both programs. -/
theorem agg_eq (e : IVec Cert.KernelIdeal.S2x1600000 32) (x : FVec Ideal Cert.KernelIdeal.S100000x128 .f32) :
    Cert.ReferenceIdeal.RefValue.aggOf (Cert.ReferenceIdeal.RefValue.srcOf e) (Cert.ReferenceIdeal.RefValue.dstOf e) x
      = Cert.KernelIdeal.Stretch.aggOf (Cert.KernelIdeal.Stretch.srcOf e) (Cert.KernelIdeal.Stretch.dstOf e) x := rfl

/-- From memories that agree on the arguments both programs end with the network of the arguments in their
    result arrays, entry by entry the same extended reals. -/
theorem algebraic : Cert.algebraic_KernelIdeal_ReferenceIdeal := by
  intro m ρ m' ρ' _ hagree
  refine ⟨fun c => Cert.KernelIdeal.Gen.W6 m ρ c (Proc.devRef .tc Cert.KernelIdeal.main_v48), ?_, ?_⟩
  · refine (θ_run Cert.KernelIdeal.defs _ _).mono (fun r h c => ?_) (Cert.KernelIdeal.WholeRun.run_all (F := Ideal) m ρ)
    exact ⟨h c _ (Cert.KernelIdeal.Gen.mem_uc Cert.KernelIdeal.main_v48 (by decide)),
      (h c _ (Cert.KernelIdeal.Gen.mem_uc Cert.KernelIdeal.main_arg0 (by decide))).trans (Cert.KernelIdeal.Gen.W6_main_arg0 m ρ c),
      (h c _ (Cert.KernelIdeal.Gen.mem_uc Cert.KernelIdeal.main_arg1 (by decide))).trans (Cert.KernelIdeal.Gen.W6_main_arg1 m ρ c),
      (h c _ (Cert.KernelIdeal.Gen.mem_uc Cert.KernelIdeal.main_arg2 (by decide))).trans (Cert.KernelIdeal.Gen.W6_main_arg2 m ρ c),
      (h c _ (Cert.KernelIdeal.Gen.mem_uc Cert.KernelIdeal.main_arg3 (by decide))).trans (Cert.KernelIdeal.Gen.W6_main_arg3 m ρ c),
      (h c _ (Cert.KernelIdeal.Gen.mem_uc Cert.KernelIdeal.main_arg4 (by decide))).trans (Cert.KernelIdeal.Gen.W6_main_arg4 m ρ c),
      (h c _ (Cert.KernelIdeal.Gen.mem_uc Cert.KernelIdeal.main_arg5 (by decide))).trans (Cert.KernelIdeal.Gen.W6_main_arg5 m ρ c),
      (h c _ (Cert.KernelIdeal.Gen.mem_uc Cert.KernelIdeal.main_arg6 (by decide))).trans (Cert.KernelIdeal.Gen.W6_main_arg6 m ρ c),
      (h c _ (Cert.KernelIdeal.Gen.mem_uc Cert.KernelIdeal.main_arg7 (by decide))).trans (Cert.KernelIdeal.Gen.W6_main_arg7 m ρ c),
      (h c _ (Cert.KernelIdeal.Gen.mem_uc Cert.KernelIdeal.main_arg8 (by decide))).trans (Cert.KernelIdeal.Gen.W6_main_arg8 m ρ c),
      (h c _ (Cert.KernelIdeal.Gen.mem_uc Cert.KernelIdeal.main_arg9 (by decide))).trans (Cert.KernelIdeal.Gen.W6_main_arg9 m ρ c),
      (h c _ (Cert.KernelIdeal.Gen.mem_uc Cert.KernelIdeal.main_arg10 (by decide))).trans (Cert.KernelIdeal.Gen.W6_main_arg10 m ρ c),
      (h c _ (Cert.KernelIdeal.Gen.mem_uc Cert.KernelIdeal.main_arg11 (by decide))).trans (Cert.KernelIdeal.Gen.W6_main_arg11 m ρ c),
      (h c _ (Cert.KernelIdeal.Gen.mem_uc Cert.KernelIdeal.main_arg12 (by decide))).trans (Cert.KernelIdeal.Gen.W6_main_arg12 m ρ c),
      (h c _ (Cert.KernelIdeal.Gen.mem_uc Cert.KernelIdeal.main_arg13 (by decide))).trans (Cert.KernelIdeal.Gen.W6_main_arg13 m ρ c)⟩
  · refine (θ_run Cert.ReferenceIdeal.defs _ _).mono (fun _ h c => ⟨(h c).1.trans ?_, (h c).2⟩)
      (Cert.ReferenceIdeal.Value.run (F := Ideal) m' ρ')
    show Cert.ReferenceIdeal.Value.res_main_v70 m' c = Cert.KernelIdeal.Gen.W6 m ρ c (Proc.devRef .tc Cert.KernelIdeal.main_v48)
    rw [Cert.ReferenceIdeal.Read.val_main_v70_eq, Cert.ReferenceIdeal.RefValue.result_eq, Cert.KernelIdeal.KernelValue.result_eq,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
    show Cert.Gin.net _ _ _ _ _ _ _ _ _ _ _ _ _ _ = Cert.Gin.net _ _ _ _ _ _ _ _ _ _ _ _ _ _
    refine congrArg (fun a => Cert.Gin.net a _ _ _ _ _ _ _ _ _ _ _ _ _) (funext fun x => ?_)
    exact agg_eq _ x

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
